-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x4096 .f32) (main_arg2 : FVec F S8x2048x4096 .f32) (main_arg3 : FVec F S8x4096x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg3
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_v13 main_v16
-- ==== Kernel.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x2048, .bf16⟩
  | .hbm, ⟨5, _⟩ => ⟨S8x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .bf16 = 32 ∨ (Rect.block (s := S8x2048x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x4096.size a
  hwx0_1 : ∀ i : grid0.Coords, EltTy.bits .f32 = 32 ∨ (Rect.block (s := S8x2048x4096) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x4096.size a
  hwx0_2 : ∀ i : grid0.Coords, EltTy.bits .f32 = 32 ∨ (Rect.block (s := S8x2048x4096) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x2048x2048.size a
  hwx0_4 : ∀ i : grid0.Coords, EltTy.bits .f32 = 32 ∨ (Rect.block (s := S8x2048x2048) S1x1024x2048.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x2048_S8x2048x4096_S8x2048x4096_2_1_1_2_0_0_wf : DotDims.WF S8x2048x2048 S8x2048x4096 S8x2048x4096 [2] [1] [1] [2] [0] [0]
  dot_S8x2048x4096_S8x4096x2048_S8x2048x2048_2_1_1_2_0_0_wf : DotDims.WF S8x2048x4096 S8x4096x2048 S8x2048x2048 [2] [1] [1] [2] [0] [0]

variable [Facts₀]

def dot_S8x2048x2048_S8x2048x4096_S8x2048x4096_2_1_1_2_0_0 : DotDims S8x2048x2048 S8x2048x4096 S8x2048x4096 where
  lhsContracting := [2]
  rhsContracting := [1]
  lhsNonContracting := [1]
  rhsNonContracting := [2]
  lhsBatch := [0]
  rhsBatch := [0]
  wf := dot_S8x2048x2048_S8x2048x4096_S8x2048x4096_2_1_1_2_0_0_wf
def dot_S8x2048x4096_S8x4096x2048_S8x2048x2048_2_1_1_2_0_0 : DotDims S8x2048x4096 S8x4096x2048 S8x2048x2048 where
  lhsContracting := [2]
  rhsContracting := [1]
  lhsNonContracting := [1]
  rhsNonContracting := [2]
  lhsBatch := [0]
  rhsBatch := [0]
  wf := dot_S8x2048x4096_S8x4096x2048_S8x2048x2048_2_1_1_2_0_0_wf

class Facts : Prop extends Facts₀ where

variable [Facts]
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.TileBody.lean ====
/-
  One grid point's arithmetic, entry by entry.

  At a grid point the kernel body holds a token block x₀ : [1, 1024, 2048], a gate tile w₁ and an inner tile
  w₂ : [1, 2048, 256], an output-weight tile w₃ : [1, 256, 2048] and the running block acc : [1, 1024, 2048].
  It forms g = x₀·w₁ and u = x₀·w₂ (both [1024, 256]), h = (g·σ(g))·u, and stores acc + h·w₃. A change of float
  format is the identity on the extended reals and a matrix product into the zero accumulator is the plain sum
  over the contracted coordinate, so at (·, r, d) the stored value is

      acc(0, r, d) + ∑ l < 256, ((g(r,l) · σ(g(r,l))) · u(r,l)) · w₃(0, l, d),
      g(r,l) = ∑ k < 2048, x₀(0, r, k) · w₁(0, k, l),   u(r,l) = ∑ k < 2048, x₀(0, r, k) · w₂(0, k, l).

  The block the first point of a sweep starts from is the zero block.
-/
import proofs.«113080_j57947698758265_2_alg».proof.Proof.Gen.KernelIdeal.Skeleton
import proofs.«113080_j57947698758265_2_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The projection of row r of the token block on column l of a weight tile. -/
def proj (x0 : Vec Ideal S1x1024x2048 .bf16) (w : Vec Ideal S1x2048x256 .f32) (r : Fin 1024) (l : Fin 256) : EReal :=
  ∑ k : Fin 2048, x0 (ix3 (0 : Fin 1) r k) * w (ix3 (0 : Fin 1) k l)

/-- The gated activation silu(g)·u of row r at position l of the tile. -/
def hidden (x0 : Vec Ideal S1x1024x2048 .bf16) (w1 w2 : Vec Ideal S1x2048x256 .f32) (r : Fin 1024) (l : Fin 256) : EReal :=
  (proj x0 w1 r l * Ideal.logistic (proj x0 w1 r l)) * proj x0 w2 r l

/-- What the tile adds to the running block at (·, r, d). -/
def addend (x0 : Vec Ideal S1x1024x2048 .bf16) (w1 w2 : Vec Ideal S1x2048x256 .f32) (w3 : Vec Ideal S1x256x2048 .f32)
    (r : Fin 1024) (d : Fin 2048) : EReal :=
  ∑ l : Fin 256, hidden x0 w1 w2 r l * w3 (ix3 (0 : Fin 1) l d)

theorem lhs1_0 (j : S1024x256.Idx) (q : dot_S1024x2048_S2048x256_S1024x256_1_0_0_1_n_n.contr.Idx) :
    (dot_S1024x2048_S2048x256_S1024x256_1_0_0_1_n_n.lhsIdx j q 0).val = (j 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem rhs1_1 (j : S1024x256.Idx) (q : dot_S1024x2048_S2048x256_S1024x256_1_0_0_1_n_n.contr.Idx) :
    (dot_S1024x2048_S2048x256_S1024x256_1_0_0_1_n_n.rhsIdx j q 1).val = (j 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

theorem lhs2_0 (j : S1024x2048.Idx) (q : dot_S1024x256_S256x2048_S1024x2048_1_0_0_1_n_n.contr.Idx) :
    (dot_S1024x256_S256x2048_S1024x2048_1_0_0_1_n_n.lhsIdx j q 0).val = (j 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl

theorem rhs2_1 (j : S1024x2048.Idx) (q : dot_S1024x256_S256x2048_S1024x2048_1_0_0_1_n_n.contr.Idx) :
    (dot_S1024x256_S256x2048_S1024x2048_1_0_0_1_n_n.rhsIdx j q 1).val = (j 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The first kind of product of the body — the token block, its unit axis dropped, against a weight tile, unit axis
    dropped and format changed, into the zero accumulator — at (r, l) is the projection. -/
theorem matmul1_apply (x0 : Vec Ideal S1x1024x2048 .bf16) (w : Vec Ideal S1x2048x256 .f32)
    (h1 : S1x1024x2048.ShapeCasts S1024x2048) (h2 : S1x2048x256.ShapeCasts S2048x256) (hb : FTy.bits .bf16 < FTy.bits .f32)
    (r : Fin 1024) (l : Fin 256) :
    matmul (F := Ideal) dot_S1024x2048_S2048x256_S1024x256_1_0_0_1_n_n none
        (shapeCast S1024x2048 x0 h1 : FVec Ideal S1024x2048 .bf16)
        (truncf .bf16 (shapeCast S2048x256 w h2 : FVec Ideal S2048x256 .f32) hb)
        (constant S1024x256 .f32 0x00000000#32) (ix2 r l)
      = proj x0 w r l := by
  simp only [matmul]
  rw [Ideal.matmul_constant_zero_apply,
    Contract2.sum_contr_eq_sum_fin dot_S1024x2048_S2048x256_S1024x256_1_0_0_1_n_n rfl rfl rfl rfl lhs1_0 rhs1_1]
  refine Finset.sum_congr rfl fun k _ => ?_
  rw [truncf_apply]
  exact congrArg₂ (· * ·) (shapeCast_1ab_ab_apply x0 h1 r k) (shapeCast_1ab_ab_apply w h2 k l)

/-- The block every sweep starts from is zero. -/
theorem pay1_apply (y : S1x1024x2048.Idx) : k0_pay1 (F := Ideal) y = 0 := by
  obtain ⟨u, r, d, rfl⟩ : ∃ (u : Fin 1) (r : Fin 1024) (d : Fin 2048), y = ix3 u r d := ⟨y 0, y 1, y 2, eq_ix3 y⟩
  unfold k0_pay1
  rw [shapeCast_ab_1ab_apply]
  exact Ideal.ofBits_zero_f32

/-- What the body stores at (·, r, d): the running block's entry plus the tile's addend. -/
theorem pay2_apply (x0 : Vec Ideal S1x1024x2048 .bf16) (w1 w2 : Vec Ideal S1x2048x256 .f32) (w3 : Vec Ideal S1x256x2048 .f32)
    (acc : Vec Ideal S1x1024x2048 .f32) (u : Fin 1) (r : Fin 1024) (d : Fin 2048) :
    k0_pay2 (F := Ideal) x0 w1 w2 w3 acc (ix3 u r d) = acc (ix3 (0 : Fin 1) r d) + addend x0 w1 w2 w3 r d := by
  unfold k0_pay2
  rw [shapeCast_ab_1ab_apply, addf_apply, shapeCast_1ab_ab_apply]
  refine congrArg (acc (ix3 (0 : Fin 1) r d) + ·) ?_
  simp only [matmul]
  rw [Ideal.matmul_constant_zero_apply,
    Contract2.sum_contr_eq_sum_fin dot_S1024x256_S256x2048_S1024x2048_1_0_0_1_n_n rfl rfl rfl rfl lhs2_0 rhs2_1]
  refine Finset.sum_congr rfl fun l _ => ?_
  rw [truncf_apply, truncf_apply, shapeCast_1ab_ab_apply, mulf_apply, mulf_apply]
  have hg := matmul1_apply x0 w1 Facts₀.shapeCasts_S1x1024x2048_S1024x2048 Facts₀.shapeCasts_S1x2048x256_S2048x256 Facts₀.bitsLt_bf16_f32 r l
  have hu := matmul1_apply x0 w2 Facts₀.shapeCasts_S1x1024x2048_S1024x2048 Facts₀.shapeCasts_S1x2048x256_S2048x256 Facts₀.bitsLt_bf16_f32 r l
  unfold hidden
  rw [← hg, ← hu]
  rfl

end Cert.KernelIdeal.Tile

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.Moe.lean ====
/-
  The grouped expert network as one function of its four arrays.

  For each expert e, the token block x[e] : [2048, 2048] is projected twice, g = x[e]·Wg[e] and u = x[e]·Wu[e]
  (both [2048, 4096]); the hidden activation is h = silu(g)·u with silu(g) = g·σ(g), σ the logistic function;
  the result is h·Wo[e] : [2048, 2048]. Entry by entry, on the extended reals:

      out(e, t, d) = ∑ i < 4096, ((g(e,t,i) · σ(g(e,t,i))) · u(e,t,i)) · Wo(e, i, d),
      g(e,t,i) = ∑ k < 2048, x(e,t,k) · Wg(e,k,i),     u(e,t,i) = ∑ k < 2048, x(e,t,k) · Wu(e,k,i).

  The sum over the 4096 hidden positions may be taken tile by tile, 16 tiles of 256 positions: a sum over
  `Fin (16 · 256)` is the sum over the tiles of the sums inside a tile. Only commutativity and associativity of
  the addition enter, so this holds on the extended reals whatever the entries are.
-/
import Idealize.ShloMosaic.Lib.ValueIdx
import Idealize.ShloMosaic.PureOps.Ideal
import proofs.«113080_j57947698758265_2_alg».proof.Proof.LibSumBlocks

noncomputable section

open scoped BigOperators

namespace Cert.Moe

open Idealize.ShloMosaic Idealize.ShloMosaic.ValueIdx

/-- One entry of a per-expert projection x[e]·W[e]: the row (e, t) of x against the column (e, ·, i) of W. -/
def proj (x : (⟨3, ![8, 2048, 2048]⟩ : Shape).Idx → EReal) (w : (⟨3, ![8, 2048, 4096]⟩ : Shape).Idx → EReal)
    (e : Fin 8) (t : Fin 2048) (i : Fin 4096) : EReal :=
  ∑ k : Fin 2048, x (ix3 e t k) * w (ix3 e k i)

/-- The gated hidden activation silu(g)·u at (e, t, i), with silu(g) = g·σ(g). -/
def hidden (x : (⟨3, ![8, 2048, 2048]⟩ : Shape).Idx → EReal) (wg wu : (⟨3, ![8, 2048, 4096]⟩ : Shape).Idx → EReal)
    (e : Fin 8) (t : Fin 2048) (i : Fin 4096) : EReal :=
  (proj x wg e t i * Ideal.logistic (proj x wg e t i)) * proj x wu e t i

/-- The network's output: the hidden activation of row (e, t) against column (e, ·, d) of the output weights. -/
def out (x : (⟨3, ![8, 2048, 2048]⟩ : Shape).Idx → EReal) (wg wu : (⟨3, ![8, 2048, 4096]⟩ : Shape).Idx → EReal)
    (wo : (⟨3, ![8, 4096, 2048]⟩ : Shape).Idx → EReal) : (⟨3, ![8, 2048, 2048]⟩ : Shape).Idx → EReal :=
  fun j => ∑ i : Fin 4096, hidden x wg wu (j 0) (j 1) i * wo (ix3 (j 0) i (j 2))

/-- Position `l` of hidden tile `s` is the hidden position `256·s + l`. -/
def tilePos (s : Fin 16) (l : Fin 256) : Fin 4096 := ⟨s.val * 256 + l.val, SumBlocks.idx_lt (A := 16) (B := 256) s l⟩

/-- The output entry, summed tile by tile over the hidden axis. -/
theorem out_tiles (x : (⟨3, ![8, 2048, 2048]⟩ : Shape).Idx → EReal) (wg wu : (⟨3, ![8, 2048, 4096]⟩ : Shape).Idx → EReal)
    (wo : (⟨3, ![8, 4096, 2048]⟩ : Shape).Idx → EReal) (e : Fin 8) (t : Fin 2048) (d : Fin 2048) :
    out x wg wu wo (ix3 e t d)
      = ∑ s : Fin 16, ∑ l : Fin 256, hidden x wg wu e t (tilePos s l) * wo (ix3 e (tilePos s l) d) :=
  SumBlocks.sum_blocks (A := 16) (B := 256) fun i : Fin (16 * 256) => hidden x wg wu e t i * wo (ix3 e i d)

end Cert.Moe

end
-- ==== Proof.Blocks.lean ====
/-
  The input blocks of a grid point, read by coordinates.

  The grid has 8 · 2 · 16 = 256 points; point n is expert e = n / 32, token half n / 16 mod 2 and hidden tile
  s = n mod 16. At that point the kernel sees rows [1024·half, 1024·half + 1024) of x[e] (all 2048 columns),
  columns [256·s, 256·s + 256) of Wg[e] and of Wu[e] (all 2048 rows) and rows [256·s, 256·s + 256) of Wo[e]
  (all 2048 columns). The token array the region finds is x with its float format changed, which on the extended
  reals is x itself.
-/
import proofs.«113080_j57947698758265_2_alg».proof.Proof.Gen.KernelIdeal.Frame
import proofs.«113080_j57947698758265_2_alg».proof.Proof.Moe
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block index of each input at point t: expert, token half and hidden tile read off t. -/
theorem idx_facts : ∀ t : Fin cfg0.N,
    (win0_0.index t (0 : Fin 3) = t.val / 32 ∧ win0_0.index t (1 : Fin 3) = t.val / 16 % 2 ∧ win0_0.index t (2 : Fin 3) = 0)
    ∧ (win0_1.index t (0 : Fin 3) = t.val / 32 ∧ win0_1.index t (1 : Fin 3) = 0 ∧ win0_1.index t (2 : Fin 3) = t.val % 16)
    ∧ (win0_2.index t (0 : Fin 3) = t.val / 32 ∧ win0_2.index t (1 : Fin 3) = 0 ∧ win0_2.index t (2 : Fin 3) = t.val % 16)
    ∧ (win0_3.index t (0 : Fin 3) = t.val / 32 ∧ win0_3.index t (1 : Fin 3) = t.val % 16 ∧ win0_3.index t (2 : Fin 3) = 0) :=
  (by decide +kernel : ∀ t : Fin grid0.N, _)

/-- The token array as the region finds it is x, entry by entry. -/
theorem tokens_apply (c : Dev nD) (i : S8x2048x2048.Idx) :
    V m c main_v0 i = m ((c : Thread nD τ).loc main_arg0) i := by
  have e : (V m c main_v0 : S8x2048x2048.Idx → EReal)
      = truncf (F := Ideal) .bf16 (m ((c : Thread nD τ).loc main_arg0) : FVec Ideal S8x2048x2048 .f32) Facts₀.bitsLt_bf16_f32 := by
    dsimp only [Gen.V, Gen.hostOps0]; after_results <;> rfl
  rw [e]
  rfl

/-- The token block at point t: row r, column k is x(e, 1024·half + r, k). -/
theorem token_block (c : Dev nD) (t : Fin cfg0.N) (e : Fin 8) (row : Fin 2048) (r : Fin 1024) (k : Fin 2048)
    (he : t.val / 32 = e.val) (hrow : row.val = t.val / 16 % 2 * 1024 + r.val) :
    iblk m c 0 t (ix3 (0 : Fin 1) r k) = m ((c : Thread nD τ).loc main_arg0) (ix3 e row k) := by
  obtain ⟨⟨a0, a1, a2⟩, -⟩ := idx_facts t
  show V m c main_v0 (((cfg0.win 0).blk t).view.emb (ix3 (0 : Fin 1) r k)) = _
  rw [tokens_apply]
  refine congrArg _ (funext fun a => Fin.ext ?_)
  match a with
  | ⟨0, _⟩ => show win0_0.index t (0 : Fin 3) * 1 + 1 * 0 = e.val; omega
  | ⟨1, _⟩ => show win0_0.index t (1 : Fin 3) * 1024 + 1 * r.val = row.val; omega
  | ⟨2, _⟩ => show win0_0.index t (2 : Fin 3) * 2048 + 1 * k.val = k.val; omega

/-- The gate tile at point t: row k, column l is Wg(e, k, 256·s + l). -/
theorem gate_block (c : Dev nD) (t : Fin cfg0.N) (e : Fin 8) (s : Fin 16) (k : Fin 2048) (l : Fin 256)
    (he : t.val / 32 = e.val) (hs : t.val % 16 = s.val) :
    iblk m c 1 t (ix3 (0 : Fin 1) k l) = m ((c : Thread nD τ).loc main_arg1) (ix3 e k (Cert.Moe.tilePos s l)) := by
  obtain ⟨-, ⟨a0, a1, a2⟩, -⟩ := idx_facts t
  show V m c main_arg1 (((cfg0.win 1).blk t).view.emb (ix3 (0 : Fin 1) k l)) = _
  rw [V_main_arg1]
  refine congrArg _ (funext fun a => Fin.ext ?_)
  match a with
  | ⟨0, _⟩ => show win0_1.index t (0 : Fin 3) * 1 + 1 * 0 = e.val; omega
  | ⟨1, _⟩ => show win0_1.index t (1 : Fin 3) * 2048 + 1 * k.val = k.val; omega
  | ⟨2, _⟩ => show win0_1.index t (2 : Fin 3) * 256 + 1 * l.val = s.val * 256 + l.val; omega

/-- The inner tile at point t: row k, column l is Wu(e, k, 256·s + l). -/
theorem inner_block (c : Dev nD) (t : Fin cfg0.N) (e : Fin 8) (s : Fin 16) (k : Fin 2048) (l : Fin 256)
    (he : t.val / 32 = e.val) (hs : t.val % 16 = s.val) :
    iblk m c 2 t (ix3 (0 : Fin 1) k l) = m ((c : Thread nD τ).loc main_arg2) (ix3 e k (Cert.Moe.tilePos s l)) := by
  obtain ⟨-, -, ⟨a0, a1, a2⟩, -⟩ := idx_facts t
  show V m c main_arg2 (((cfg0.win 2).blk t).view.emb (ix3 (0 : Fin 1) k l)) = _
  rw [V_main_arg2]
  refine congrArg _ (funext fun a => Fin.ext ?_)
  match a with
  | ⟨0, _⟩ => show win0_2.index t (0 : Fin 3) * 1 + 1 * 0 = e.val; omega
  | ⟨1, _⟩ => show win0_2.index t (1 : Fin 3) * 2048 + 1 * k.val = k.val; omega
  | ⟨2, _⟩ => show win0_2.index t (2 : Fin 3) * 256 + 1 * l.val = s.val * 256 + l.val; omega

/-- The output-weight tile at point t: row l, column d is Wo(e, 256·s + l, d). -/
theorem outw_block (c : Dev nD) (t : Fin cfg0.N) (e : Fin 8) (s : Fin 16) (l : Fin 256) (d : Fin 2048)
    (he : t.val / 32 = e.val) (hs : t.val % 16 = s.val) :
    iblk m c 3 t (ix3 (0 : Fin 1) l d) = m ((c : Thread nD τ).loc main_arg3) (ix3 e (Cert.Moe.tilePos s l) d) := by
  obtain ⟨-, -, -, a0, a1, a2⟩ := idx_facts t
  show V m c main_arg3 (((cfg0.win 3).blk t).view.emb (ix3 (0 : Fin 1) l d)) = _
  rw [V_main_arg3]
  refine congrArg _ (funext fun a => Fin.ext ?_)
  match a with
  | ⟨0, _⟩ => show win0_3.index t (0 : Fin 3) * 1 + 1 * 0 = e.val; omega
  | ⟨1, _⟩ => show win0_3.index t (1 : Fin 3) * 256 + 1 * l.val = s.val * 256 + l.val; omega
  | ⟨2, _⟩ => show win0_3.index t (2 : Fin 3) * 2048 + 1 * d.val = d.val; omega

end Cert.KernelIdeal.Blocks

end
-- ==== Proof.Sweep.lean ====
/-
  The kernel's result array is the grouped expert network.

  For a fixed expert e and token half the 16 consecutive grid points 16·q … 16·q + 15 (q = 2·e + half) sweep the 16
  hidden tiles. The output block starts from zero at the first of them and each point adds its tile's addend, so
  after the last point the block holds, at row r and column d,

      0 + ∑ s < 16, ∑ l < 256, hidden(e, 1024·half + r, 256·s + l) · Wo(e, 256·s + l, d),

  which is the sum over all 4096 hidden positions taken tile by tile: the network's output at
  (e, 1024·half + r, d). The 16 blocks written back (one per pair of expert and token half) tile the array.
-/
import proofs.«113080_j57947698758265_2_alg».proof.Proof.Gen.KernelIdeal.Value
import proofs.«113080_j57947698758265_2_alg».proof.Proof.TileBody
import proofs.«113080_j57947698758265_2_alg».proof.Proof.Blocks
import proofs.«113080_j57947698758265_2_alg».proof.Proof.Moe

noncomputable section

open scoped BigOperators

namespace Cert.KernelIdeal.Sweep

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What grid point n adds to the output block at a position of the block (zero past the grid). -/
def pointAddend (c : Dev nD) (n : ℕ) (y : S1x1024x2048.Idx) : EReal :=
  if h : n < cfg0.N then
    Tile.addend (iblk m c 0 ⟨n, h⟩) (iblk m c 1 ⟨n, h⟩) (iblk m c 2 ⟨n, h⟩) (iblk m c 3 ⟨n, h⟩) (y 1) (y 2)
  else 0

/-- The first point of a sweep leaves zero plus its addend. -/
theorem reset_apply (c : Dev nD) (b : ℕ) (h : b < cfg0.N) (y : S1x1024x2048.Idx) :
    Value.reset4 (F := Ideal) m c b h y = 0 + pointAddend m c b y := by
  obtain ⟨u, r, d, rfl⟩ : ∃ (u : Fin 1) (r : Fin 1024) (d : Fin 2048), y = ix3 u r d := ⟨y 0, y 1, y 2, eq_ix3 y⟩
  unfold Value.reset4 pointAddend
  rw [dif_pos h]
  exact (Tile.pay2_apply (iblk m c 0 ⟨b, h⟩) (iblk m c 1 ⟨b, h⟩) (iblk m c 2 ⟨b, h⟩) (iblk m c 3 ⟨b, h⟩)
    (k0_pay1 (F := Ideal)) u r d).trans (congrArg (· + _) (Tile.pay1_apply (ix3 (0 : Fin 1) r d)))

/-- Every later point adds its addend to what the point before left. -/
theorem step_apply (c : Dev nD) (n : ℕ) (h : n < cfg0.N) (acc : Vec Ideal S1x1024x2048 .f32) (y : S1x1024x2048.Idx) :
    Value.step4 (F := Ideal) m c n h acc y = acc y + pointAddend m c n y := by
  obtain ⟨u, r, d, rfl⟩ : ∃ (u : Fin 1) (r : Fin 1024) (d : Fin 2048), y = ix3 u r d := ⟨y 0, y 1, y 2, eq_ix3 y⟩
  obtain rfl : u = 0 := Subsingleton.elim u 0
  unfold Value.step4 pointAddend
  rw [dif_pos h]
  exact Tile.pay2_apply (iblk m c 0 ⟨n, h⟩) (iblk m c 1 ⟨n, h⟩) (iblk m c 2 ⟨n, h⟩) (iblk m c 3 ⟨n, h⟩) acc 0 r d

/-- After the 16 points of sweep q the block holds the sum of their addends. -/
theorem sweep_apply (c : Dev nD) (q : ℕ) (h : 16 * q + 15 < cfg0.N) (y : S1x1024x2048.Idx) :
    Pipeline.accAt (Value.reset4 (F := Ideal) m c) (Value.step4 (F := Ideal) m c) (16 * q) 15 h y
      = 0 + ∑ s ∈ Finset.range 16, pointAddend m c (16 * q + s) y :=
  Pipeline.accAt_add_apply (Value.reset4 (F := Ideal) m c) (Value.step4 (F := Ideal) m c) (fun _ => (0 : EReal))
    (pointAddend m c) (16 * q) 15 (fun hb i => reset_apply m c (16 * q) hb i)
    (fun n hn acc i _ _ => step_apply m c n hn acc i) 15 le_rfl h y

/-- A projection of the point's token block on one of its weight tiles is the network's projection. -/
theorem proj_gate (c : Dev nD) (t : Fin cfg0.N) (e : Fin 8) (s : Fin 16) (row : Fin 2048) (r : Fin 1024) (l : Fin 256)
    (he : t.val / 32 = e.val) (hs : t.val % 16 = s.val) (hrow : row.val = t.val / 16 % 2 * 1024 + r.val) :
    Tile.proj (iblk m c 0 t) (iblk m c 1 t) r l
      = Cert.Moe.proj (m ((c : Thread nD τ).loc main_arg0)) (m ((c : Thread nD τ).loc main_arg1)) e row (Cert.Moe.tilePos s l) := by
  unfold Tile.proj Cert.Moe.proj
  exact Finset.sum_congr rfl fun k _ =>
    congrArg₂ (· * ·) (Blocks.token_block m c t e row r k he hrow) (Blocks.gate_block m c t e s k l he hs)

theorem proj_inner (c : Dev nD) (t : Fin cfg0.N) (e : Fin 8) (s : Fin 16) (row : Fin 2048) (r : Fin 1024) (l : Fin 256)
    (he : t.val / 32 = e.val) (hs : t.val % 16 = s.val) (hrow : row.val = t.val / 16 % 2 * 1024 + r.val) :
    Tile.proj (iblk m c 0 t) (iblk m c 2 t) r l
      = Cert.Moe.proj (m ((c : Thread nD τ).loc main_arg0)) (m ((c : Thread nD τ).loc main_arg2)) e row (Cert.Moe.tilePos s l) := by
  unfold Tile.proj Cert.Moe.proj
  exact Finset.sum_congr rfl fun k _ =>
    congrArg₂ (· * ·) (Blocks.token_block m c t e row r k he hrow) (Blocks.inner_block m c t e s k l he hs)

/-- The addend of the point sweeping tile s for expert e and the token half of `row`, at row r of the block. -/
theorem pointAddend_eq (c : Dev nD) (n : ℕ) (e : Fin 8) (s : Fin 16) (row : Fin 2048) (u : Fin 1) (r : Fin 1024) (d : Fin 2048)
    (hn : n < cfg0.N) (he : n / 32 = e.val) (hs : n % 16 = s.val) (hrow : row.val = n / 16 % 2 * 1024 + r.val) :
    pointAddend m c n (ix3 u r d)
      = ∑ l : Fin 256, Cert.Moe.hidden (m ((c : Thread nD τ).loc main_arg0)) (m ((c : Thread nD τ).loc main_arg1))
            (m ((c : Thread nD τ).loc main_arg2)) e row (Cert.Moe.tilePos s l)
          * m ((c : Thread nD τ).loc main_arg3) (ix3 e (Cert.Moe.tilePos s l) d) := by
  unfold pointAddend
  rw [dif_pos hn]
  unfold Tile.addend
  refine Finset.sum_congr rfl fun l _ => ?_
  refine congrArg₂ (· * ·) ?_ (Blocks.outw_block m c ⟨n, hn⟩ e s l d he hs)
  unfold Tile.hidden Cert.Moe.hidden
  have hg := proj_gate m c ⟨n, hn⟩ e s row r l he hs hrow
  have hu := proj_inner m c ⟨n, hn⟩ e s row r l he hs hrow
  show (Tile.proj (iblk m c 0 ⟨n, hn⟩) (iblk m c 1 ⟨n, hn⟩) r l * Ideal.logistic (Tile.proj (iblk m c 0 ⟨n, hn⟩) (iblk m c 1 ⟨n, hn⟩) r l))
      * Tile.proj (iblk m c 0 ⟨n, hn⟩) (iblk m c 2 ⟨n, hn⟩) r l = _
  rw [hg, hu]

/-- The array the kernel leaves is the network's output of the four argument arrays. -/
theorem result_eq (c : Dev nD) :
    Value.G4 (F := Ideal) m c
      = Cert.Moe.out (m ((c : Thread nD τ).loc main_arg0)) (m ((c : Thread nD τ).loc main_arg1))
          (m ((c : Thread nD τ).loc main_arg2)) (m ((c : Thread nD τ).loc main_arg3)) := by
  funext j
  obtain ⟨e, row, d, rfl⟩ : ∃ (e : Fin 8) (row : Fin 2048) (d : Fin 2048), j = ix3 e row d := ⟨j 0, j 1, j 2, eq_ix3 j⟩
  change @Eq EReal _ _
  have hN : cfg0.N = 256 := N_0
  have he8 := e.isLt
  have hrow2048 := row.isLt
  have hd := d.isLt
  have hq : Value.run4Of (ix3 e row d) = 2 * e.val + row.val / 1024 := by
    show 2 * (e.val / 1 - 0) + 1 * (row.val / 1024 - 0) + 1 * (d.val / 2048 - 0) = _
    omega
  have hlt : 16 * Value.run4Of (ix3 e row d) + 15 < cfg0.N := by rw [hq, hN]; omega
  have hl : Value.loc4Of (ix3 e row d) = ix3 (0 : Fin 1) (⟨row.val % 1024, Nat.mod_lt _ (by decide)⟩ : Fin 1024) d :=
    funext fun a => Fin.ext (by
      match a with
      | ⟨0, _⟩ => show e.val % 1 = 0; omega
      | ⟨1, _⟩ => rfl
      | ⟨2, _⟩ => show d.val % 2048 = d.val; omega)
  unfold Value.G4
  rw [dif_pos hlt, hl, sweep_apply m c (Value.run4Of (ix3 e row d)) hlt, zero_add, Cert.Moe.out_tiles, Finset.sum_range]
  refine Finset.sum_congr rfl fun s _ => ?_
  have hs16 := s.isLt
  exact pointAddend_eq m c (16 * Value.run4Of (ix3 e row d) + s.val) e s row 0 ⟨row.val % 1024, Nat.mod_lt _ (by decide)⟩ d
    (by rw [hq, hN]; omega) (by rw [hq]; omega) (by rw [hq]; omega)
    (by rw [hq]; show row.val = (16 * (2 * e.val + row.val / 1024) + s.val) / 16 % 2 * 1024 + row.val % 1024; omega)

/-- The kernel's run with its result array named as the network's output. -/
theorem run (ρ : Dev nD → PrngReg) :
    θ_run defs (onTc (τ := τ) (main (F := Ideal))) ⟨m, fun _ => 0, ρ⟩ fun r => ∀ c : Dev nD,
      r.2.mem ((c : Thread nD τ).loc main_v1)
          = Cert.Moe.out (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result_eq m c), (h c).2⟩) (Value.run (F := Ideal) m ρ)

end Cert.KernelIdeal.Sweep

end
-- ==== Proof.RefRead.lean ====
/-
  The reference computes the grouped expert network.

  Its five stages are two batched matrix products (g = x·Wg and u = x·Wu, contracting the last axis of x with the
  middle axis of a weight, expert by expert), silu written out as g · (1 / (1 + exp(−g))), the product with u, and a
  third batched product with Wo. Read at an index on the extended reals each product is the plain sum over the
  contracted coordinate, and 1 / (1 + exp(−g)) is the logistic function of g by definition, at every extended real
  (the infinities included). So the reference's result is the function `Moe.out` of its four arguments.
-/
import proofs.«113080_j57947698758265_2_alg».proof.Proof.Gen.ReferenceIdeal.Read
import proofs.«113080_j57947698758265_2_alg».proof.Proof.Moe

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The float word 0x3F800000 is the number one. -/
theorem one_f32 : Ideal.ofBits .f32 0x3F800000#32 = 1 := by
  simp [Ideal.ofBits, Ideal.ieee, -EReal.coe_mul]; norm_num

/-- The first product at (e, t, i) is the projection of row (e, t) of x on column (e, ·, i) of the gate weights. -/
theorem gate_apply (x0 : (⟨S8x2048x2048, .f32⟩ : BufTy).Contents (Elt Ideal)) (x1 : (⟨S8x2048x4096, .f32⟩ : BufTy).Contents (Elt Ideal))
    (e : Fin 8) (t : Fin 2048) (i : Fin 4096) :
    val_main_v0 (F := Ideal) x0 x1 (ix3 e t i) = Cert.Moe.proj x0 x1 e t i := by
  rw [val_main_v0_apply]
  refine Finset.sum_congr rfl fun k _ => ?_
  have el : lidx_main_v0 (ix3 e t i) k = ix3 e t k :=
    funext fun a => Fin.ext (by match a with | ⟨0, _⟩ => rfl | ⟨1, _⟩ => rfl | ⟨2, _⟩ => rfl)
  have er : ridx_main_v0 (ix3 e t i) k = ix3 e k i :=
    funext fun a => Fin.ext (by match a with | ⟨0, _⟩ => rfl | ⟨1, _⟩ => rfl | ⟨2, _⟩ => rfl)
  rw [el, er]

/-- The second product likewise, on the inner weights. -/
theorem inner_apply (x0 : (⟨S8x2048x2048, .f32⟩ : BufTy).Contents (Elt Ideal)) (x2 : (⟨S8x2048x4096, .f32⟩ : BufTy).Contents (Elt Ideal))
    (e : Fin 8) (t : Fin 2048) (i : Fin 4096) :
    val_main_v1 (F := Ideal) x0 x2 (ix3 e t i) = Cert.Moe.proj x0 x2 e t i := by
  rw [val_main_v1_apply]
  refine Finset.sum_congr rfl fun k _ => ?_
  have el : lidx_main_v1 (ix3 e t i) k = ix3 e t k :=
    funext fun a => Fin.ext (by match a with | ⟨0, _⟩ => rfl | ⟨1, _⟩ => rfl | ⟨2, _⟩ => rfl)
  have er : ridx_main_v1 (ix3 e t i) k = ix3 e k i :=
    funext fun a => Fin.ext (by match a with | ⟨0, _⟩ => rfl | ⟨1, _⟩ => rfl | ⟨2, _⟩ => rfl)
  rw [el, er]

/-- The gated activation at (e, t, i): g · (1 / (1 + exp(−g))) · u is silu(g) · u. -/
theorem hidden_apply (x0 : (⟨S8x2048x2048, .f32⟩ : BufTy).Contents (Elt Ideal)) (x1 x2 : (⟨S8x2048x4096, .f32⟩ : BufTy).Contents (Elt Ideal))
    (e : Fin 8) (t : Fin 2048) (i : Fin 4096) :
    val_main_v3 (F := Ideal) x0 x1 x2 (ix3 e t i) = Cert.Moe.hidden x0 x1 x2 e t i := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, gate_apply, inner_apply]
  simp only [Ideal.ofBits_def, one_f32, Ideal.mulf_def, Ideal.hostDivf_def, Ideal.addf_def, Ideal.hostUnary_exp_def,
    Ideal.hostNegf_def, Ideal.negf_def]
  rfl

/-- The reference's result is the network's output, entry by entry. -/
theorem ref_eq_out (x0 : (⟨S8x2048x2048, .f32⟩ : BufTy).Contents (Elt Ideal)) (x1 x2 : (⟨S8x2048x4096, .f32⟩ : BufTy).Contents (Elt Ideal))
    (x3 : (⟨S8x4096x2048, .f32⟩ : BufTy).Contents (Elt Ideal)) :
    val_main_v4 (F := Ideal) x0 x1 x2 x3 = Cert.Moe.out x0 x1 x2 x3 := by
  funext j
  obtain ⟨e, t, d, rfl⟩ : ∃ (e : Fin 8) (t : Fin 2048) (d : Fin 2048), j = ix3 e t d := ⟨j 0, j 1, j 2, eq_ix3 j⟩
  rw [val_main_v4_apply]
  refine Finset.sum_congr rfl fun i _ => ?_
  have el : lidx_main_v4 (ix3 e t d) i = ix3 e t i :=
    funext fun a => Fin.ext (by match a with | ⟨0, _⟩ => rfl | ⟨1, _⟩ => rfl | ⟨2, _⟩ => rfl)
  have er : ridx_main_v4 (ix3 e t d) i = ix3 e i d :=
    funext fun a => Fin.ext (by match a with | ⟨0, _⟩ => rfl | ⟨1, _⟩ => rfl | ⟨2, _⟩ => rfl)
  show val_main_v3 (F := Ideal) x0 x1 x2 (lidx_main_v4 (ix3 e t d) i) * x3 (ridx_main_v4 (ix3 e t d) i)
    = Cert.Moe.hidden x0 x1 x2 e t i * x3 (ix3 e i d)
  rw [el, er, hidden_apply]

end Cert.ReferenceIdeal.RefValue

end
-- ==== Proof.lean ====
/-
  The grouped expert network, tiled, against its plain form.

  Both programs compute, for each of 8 experts, out[e] = (silu(x[e]·Wg[e]) · (x[e]·Wu[e])) · Wo[e] with
  x[e] : [2048, 2048], Wg[e], Wu[e] : [2048, 4096], Wo[e] : [4096, 2048]. The kernel walks a grid of
  8 · 2 · 16 points (expert, token half, hidden tile of 256 positions): at each point it forms the gated activation
  of 1024 tokens on one hidden tile and adds its product with the matching 256 rows of Wo[e] into the output
  block, which starts from zero at the first tile and is written back after the last. The reference forms the
  three products whole, with silu written as g · (1 / (1 + exp(−g))).

  On the extended reals a change of float format is the identity, a product into a zero accumulator is a plain
  sum, 1 / (1 + exp(−g)) is the logistic function of g at every extended real, and the sum over the 4096 hidden
  positions is the sum over the 16 tiles of the sums inside a tile (commutativity and associativity of the
  addition only, so no entry needs to be finite). Both results are therefore the one function `Moe.out` of the four
  argument arrays (Proof/Moe.lean): the kernel's by Proof/TileBody.lean (one point's arithmetic), Proof/Blocks.lean
  (which entries a point reads) and Proof/Sweep.lean (the 16 points of a sweep, and the blocks tiling the array);
  the reference's by Proof/RefRead.lean. The frames are the generated ones, and the idealization rewrote nothing.
-/
import proofs.«113080_j57947698758265_2_alg».proof.Defs
import proofs.«113080_j57947698758265_2_alg».proof.Proof.Gen.Kernel.Frame
import proofs.«113080_j57947698758265_2_alg».proof.Proof.Gen.KernelIdeal.Value
import proofs.«113080_j57947698758265_2_alg».proof.Proof.Gen.Pre_finite_inputs
import proofs.«113080_j57947698758265_2_alg».proof.Proof.Gen.ReferenceIdeal.Run
import proofs.«113080_j57947698758265_2_alg».proof.Proof.Sweep
import proofs.«113080_j57947698758265_2_alg».proof.Proof.RefRead
import Idealize.ShloMosaic.Adequacy
import Idealize.ShloMosaic.Init

noncomputable section

namespace Cert.Proof

open Idealize.ShloMosaic Idealize.SL.Sem

/-- The idealized kernel terminates without a fault and leaves its arguments as they were. -/
theorem frame_KernelIdeal : frame_KernelIdeal := fun m ρ _ =>
  (θ_run Cert.KernelIdeal.defs _ _).mono (fun _ h c => (h c).2) (Cert.KernelIdeal.Value.run (F := Ideal) m ρ)

/-- So does the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on x, Wg, Wu and Wo both programs end with the network's output of those arrays. -/
theorem algebraic_KernelIdeal_ReferenceIdeal : algebraic_KernelIdeal_ReferenceIdeal := by
  intro m ρ m' ρ' _ hagree
  refine ⟨_, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_out,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
